-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x256x3 : Shape := ⟨3, ![1, 256, 3]⟩
abbrev S1x3x4096 : Shape := ⟨3, ![1, 3, 4096]⟩
abbrev S1x256x1 : Shape := ⟨3, ![1, 256, 1]⟩
abbrev S1x1x4096 : Shape := ⟨3, ![1, 1, 4096]⟩
abbrev S1x4096 : Shape := ⟨2, ![1, 4096]⟩
abbrev S256x3 : Shape := ⟨2, ![256, 3]⟩
abbrev S3x4096 : Shape := ⟨2, ![3, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩
abbrev S8x4096 : Shape := ⟨2, ![8, 4096]⟩
abbrev S_ : Shape := ⟨0, ![]⟩
abbrev S8 : Shape := ⟨1, ![8]⟩

abbrev nBuf : Space → Nat
  | .hbm => 22
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x4096x1, .f32⟩
  | .hbm, ⟨4, _⟩ => ⟨S8x1x4096, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x256x1, .f32⟩
  | .local _ .vmem, ⟨5, _⟩ => ⟨S1x256x1, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v35 : BitVec 1 := Scalar.cmpi .eq arg1 c15_i32
  let v36 : BitVec 32 := Scalar.extui v35
  let c0_i32_19 : BitVec 32 := 0#32
  let v37 : BitVec 1 := Scalar.cmpi .ne v36 c0_i32_19
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S256x3_S256 : S256x3.Reduces [1] S256
  shapeCasts_S256_S256x1 : S256.ShapeCasts S256x1
  reduces_S3x4096_S4096 : S3x4096.Reduces [0] S4096
  shapeCasts_S4096_S1x4096 : S4096.ShapeCasts S1x4096
  broadcasts_S256x1_S256x4096 : S256x1.Broadcasts S256x4096
  broadcasts_S1x4096_S256x4096 : S1x4096.Broadcasts S256x4096
  reduces_S256x4096_S256 : S256x4096.Reduces [1] S256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reduces_S256x4096_S4096 : S256x4096.Reduces [0] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x4096x1_S8x4096 : S8x4096x1.ShapeCasts S8x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S256x3_S3x4096_S256x4096_1_0_0_1_n_n_wf : DotDims.WF S256x3 S3x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S8x4096x3.size a
  hwx0_0 : ∀ i : grid0.Coords, EltTy.bits .f32 = 32 ∨ (Rect.block (s := S8x4096x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x4096x1.size a
  hwx0_2 : ∀ i : grid0.Coords, EltTy.bits .f32 = 32 ∨ (Rect.block (s := S8x4096x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S256x3_S3x4096_S256x4096_1_0_0_1_n_n : DotDims S256x3 S3x4096 S256x4096 where
  lhsContracting := [1]
  rhsContracting := [0]
  lhsNonContracting := [0]
  rhsNonContracting := [1]
  lhsBatch := []
  rhsBatch := []
  wf := dot_S256x3_S3x4096_S256x4096_1_0_0_1_n_n_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KPieces.lean ====
/-
  What one run of the kernel body leaves behind, case by case, as the body's own arithmetic of the
  blocks it loaded.  At the first tile of a batch (case A) the running column minimum is restarted
  from +∞ before the tile's column minimum is folded in; at the other tiles (cases B and C) it is
  folded into what the previous tile left; the row output is always the tile's own row result; and
  at the last tile (case C) the column output is the square root of the running minimum just stored.
-/
import proofs.«146663_j7301444403296_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## First tile of a batch -/

theorem out_A_2 (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i)
    (x0 : Vec F S1x256x3 .f32) (x1 : Vec F S1x3x4096 .f32) :
    out0_A_2 c i arg2 harg2 arg3 harg3 arg4 harg4 arg5 harg5 arg6 harg6 hc0 hc1 x0 x1 = k0_pay5 x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  sl_unfold_words
  rw [View.canon_unit_zero hz3]
  simp only [View.readAt_eq_ld, harg2.read_unread, harg3.read_unread, View.ld_unit_zero (S := S1x256x3) hz3,
    View.ld_unit_zero (S := S1x3x4096) hz3]

theorem sout_A_0 (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i)
    (x0 : Vec F S1x256x3 .f32) (x1 : Vec F S1x3x4096 .f32) :
    sout0_A_0 c i arg2 harg2 arg3 harg3 arg4 harg4 arg5 harg5 arg6 harg6 hc0 hc1 x0 x1 = k0_pay1 (k0_pay6 x0 x1 (k0_pay3 (F := F))) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x4096) hz2, View.readCov_unit_zero (S := S1x4096) _ hz2]
  simp only [View.readAt_eq_ld, harg2.read_unread, harg3.read_unread, View.ld_unit_zero (S := S1x256x3) hz3,
    View.ld_unit_zero (S := S1x3x4096) hz3]

/-! ## A middle tile -/

theorem out_B_2 (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i)
    (x0 : Vec F S1x256x3 .f32) (x1 : Vec F S1x3x4096 .f32) (xs0 : Vec F S1x4096 .f32) :
    out0_B_2 c i arg2 harg2 arg3 harg3 arg4 harg4 arg5 harg5 arg6 harg6 hc0 hc1 x0 x1 xs0 = k0_pay5 x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  sl_unfold_words
  rw [View.canon_unit_zero hz3]
  simp only [View.readAt_eq_ld, harg2.read_unread, harg3.read_unread, View.ld_unit_zero (S := S1x256x3) hz3,
    View.ld_unit_zero (S := S1x3x4096) hz3]

theorem sout_B_0 (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i)
    (x0 : Vec F S1x256x3 .f32) (x1 : Vec F S1x3x4096 .f32) (xs0 : Vec F S1x4096 .f32) :
    sout0_B_0 c i arg2 harg2 arg3 harg3 arg4 harg4 arg5 harg5 arg6 harg6 hc0 hc1 x0 x1 xs0 = k0_pay1 (k0_pay6 x0 x1 xs0) := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S1x256x3) hz3,
    View.ld_unit_zero (S := S1x3x4096) hz3, View.ld_unit_zero (S := S1x4096) hz2]

/-! ## Last tile of a batch -/

theorem out_C_2 (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x256x3 .f32) (x1 : Vec F S1x3x4096 .f32) (xs0 : Vec F S1x4096 .f32) :
    out0_C_2 c i arg2 harg2 arg3 harg3 arg4 harg4 arg5 harg5 arg6 harg6 hc0 hc1 x0 x1 xs0 = k0_pay5 x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, View.ld_unit_zero (S := S1x256x3) hz3,
    View.ld_unit_zero (S := S1x3x4096) hz3]

theorem sout_C_0 (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x256x3 .f32) (x1 : Vec F S1x3x4096 .f32) (xs0 : Vec F S1x4096 .f32) :
    sout0_C_0 c i arg2 harg2 arg3 harg3 arg4 harg4 arg5 harg5 arg6 harg6 hc0 hc1 x0 x1 xs0 = k0_pay1 (k0_pay6 x0 x1 xs0) := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S1x256x3) hz3,
    View.ld_unit_zero (S := S1x3x4096) hz3, View.ld_unit_zero (S := S1x4096) hz2]

theorem out_C_3 (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x256x3 .f32) (x1 : Vec F S1x3x4096 .f32) (xs0 : Vec F S1x4096 .f32) :
    out0_C_3 c i arg2 harg2 arg3 harg3 arg4 harg4 arg5 harg5 arg6 harg6 hc0 hc1 x0 x1 xs0 = k0_pay2 (k0_pay1 (k0_pay6 x0 x1 xs0)) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg6.read_unread, View.ld_unit_zero (S := S1x256x3) hz3,
    View.ld_unit_zero (S := S1x3x4096) hz3, View.ld_unit_zero (S := S1x4096) hz2]
  rw [View.readCov_unit_zero (S := S1x4096) _ hz2]

end Cert.KernelIdeal.Pieces

end
-- ==== Proof.KPoints.lean ====
/-
  What the staging buffers and the running column minimum hold after each grid point, with the
  three control cases folded away: the row output is always the tile's own row result; the running
  minimum restarts from +∞ at the first tile of a batch and otherwise continues from what the
  previous point left; at the last tile of a batch the column output is the square root of the
  running minimum that point has just stored.
-/
import proofs.«146663_j7301444403296_2_alg».proof.Proof.KPieces
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Points

open Cert.KernelIdeal Cert.KernelIdeal.Gen Idealize.ShloMosaic.ValueIdx

variable {F : FTy → Type} [FloatOps F]
variable (m : (ℓ : Loc nD τ sig) → Buf (Elt F) ℓ)

open Cert.KernelIdeal.Pieces

/-- The row output after point t. -/
theorem row_out (c : Dev nD) (t : Fin cfg0.N) :
    (outsAt0 m c t.val t.isLt).1 = k0_pay5 (iblk m c 0 t) (iblk m c 1 t) := by
  have hN : t.val < 128 := lt_of_lt_of_eq t.isLt N_0
  by_cases h0 : t.val % 16 = 0
  · have h1 : ¬t.val % 16 = 15 := by omega
    rw [outsAt0_A m c t h0 h1]
    dsimp only
    exact out_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 16 = 15
    · rw [outsAt0_C m c t h0 h1]
      dsimp only
      exact out_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact out_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- The running column minimum after the first tile of a batch: restarted from +∞. -/
theorem acc_first (c : Dev nD) (t : Fin cfg0.N) (h0 : t.val % 16 = 0) :
    (outsAt0 m c t.val t.isLt).2.2 = k0_pay1 (k0_pay6 (iblk m c 0 t) (iblk m c 1 t) (k0_pay3 (F := F))) := by
  have h1 : ¬t.val % 16 = 15 := by omega
  rw [outsAt0_A m c t h0 h1]
  dsimp only
  exact sout_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- The running column minimum after any other tile: continued from the previous point's. -/
theorem acc_next (c : Dev nD) (t : Fin cfg0.N) (h0 : ¬t.val % 16 = 0) :
    (outsAt0 m c t.val t.isLt).2.2 = k0_pay1 (k0_pay6 (iblk m c 0 t) (iblk m c 1 t) (outsAt0 m c (t.val - 1) (Nat.lt_of_le_of_lt (Nat.sub_le _ _) t.isLt)).2.2) := by
  by_cases h1 : t.val % 16 = 15
  · rw [outsAt0_C m c t h0 h1]
    dsimp only
    exact sout_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  · rw [outsAt0_B m c t h0 h1]
    dsimp only
    exact sout_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- The column output after the last tile of a batch: the square root of the running minimum just stored. -/
theorem col_out (c : Dev nD) (t : Fin cfg0.N) (h1 : t.val % 16 = 15) :
    (outsAt0 m c t.val t.isLt).2.1 = k0_pay2 ((outsAt0 m c t.val t.isLt).2.2) := by
  have h0 : ¬t.val % 16 = 0 := by omega
  rw [outsAt0_C m c t h0 h1]
  dsimp only
  rw [out_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2,
    sout_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2]

end Cert.KernelIdeal.Points

end
-- ==== Proof.KBlocks.lean ====
/-
  Which part of the two clouds a grid point sees.  The grid is 8 batches × 16 tiles of 256 rows:
  point t works on batch t / 16 and on rows 256·(t % 16) … 256·(t % 16) + 255 of the first cloud;
  of the second cloud it sees the whole batch, transposed (coordinate k of point c at [k, c]).
-/
import proofs.«146663_j7301444403296_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The printed index maps over the grid: every window's batch index is t / 16; the two windows that move
    with the tile (the first cloud's block and the row output) sit at tile t % 16; the others do not move. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = t.val % 16 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

theorem N128 : cfg0.N = 128 := N_0

/-- The batch a grid point works on. -/
def batch (t : Fin cfg0.N) : Fin 8 := ⟨t.val / 16, by have := t.isLt; have := N128; omega⟩

/-- The cloud row of row r of the point's tile. -/
def row (t : Fin cfg0.N) (r : Fin 256) : Fin 4096 := ⟨256 * (t.val % 16) + r.val, by have := r.isLt; omega⟩

/-- The first cloud's block at point t is rows 256·(t % 16) + r of batch t / 16. -/
theorem iblk0_apply (c : Dev nD) (t : Fin cfg0.N) (r : Fin 256) (k : Fin 3) :
    (iblk m c 0 t : Vec F S1x256x3 .f32) (ix3 (0 : Fin 1) r k) = V m c main_arg0 (ix3 (batch t) (row t r) k) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 3 + 1 * k.val = k.val; omega

/-- The transposed second cloud's block at point t is the whole of batch t / 16. -/
theorem iblk1_apply (c : Dev nD) (t : Fin cfg0.N) (k : Fin 3) (q : Fin 4096) :
    (iblk m c 1 t : Vec F S1x3x4096 .f32) (ix3 (0 : Fin 1) k q) = V m c main_v0 (ix3 (batch t) k q) := by
  obtain ⟨-, -, -, e0, e1, e2, -⟩ := idx_facts t
  unfold iblk
  rw [View.read_apply]
  show V m c main_v0 _ = V m c main_v0 _
  refine congrArg (V m c main_v0) (funext fun a => Fin.ext ?_)
  match a with
  | ⟨0, _⟩ => show win0_1.index t (0 : Fin 3) * 1 + 1 * 0 = t.val / 16; omega
  | ⟨1, _⟩ => show win0_1.index t (1 : Fin 3) * 3 + 1 * k.val = k.val; omega
  | ⟨2, _⟩ => show win0_1.index t (2 : Fin 3) * 4096 + 1 * q.val = q.val; omega

/-- What the region finds in the transposed array: the second cloud with its last two axes exchanged. -/
theorem V_v0_apply (c : Dev nD) (b : Fin 8) (k : Fin 3) (q : Fin 4096) :
    V m c main_v0 (ix3 b k q) = m ((c : Thread nD τ).loc main_arg1) (ix3 b q k) := by
  have e : (V m c main_v0 : S8x3x4096.Idx → Elt F .f32)
      = transpose S8x3x4096 [0, 2, 1] (m ((c : Thread nD τ).loc main_arg1)) Facts₀.transposes_S8x4096x3_S8x3x4096_0_2_1 := by
    show StableHlo.after hostOps0 (fun b => m (c, b)) (Proc.devRef .tc main_v0) = _
    after_results
  rw [e]
  exact transpose_apply _ _ _ _ (ix3 b q k) (fun a => by match a with | ⟨0, _⟩ => rfl | ⟨1, _⟩ => rfl | ⟨2, _⟩ => rfl)

end Cert.KernelIdeal.Blocks

end
-- ==== Proof.Spec.lean ====
/-
  The Chamfer loss of two clouds of 8 × 4096 points in three coordinates, as a function on the
  extended reals.  For a batch b, a point p = a0[b,n,:] and a point q = a1[b,m,:] the clamped squared
  distance is  max((|p|² + |q|²) − 2·(p·q), 0);  each point's nearest-neighbour distance is the
  square root of the minimum of that quantity over the other cloud (a minimum taken from +∞), and the
  loss is the mean over batches of the sum of the two clouds' mean nearest-neighbour distances.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- The shapes of the mathematics: a cloud, a per-point array, a per-batch array, a scalar. -/
abbrev SC : Shape := ⟨3, ![8, 4096, 3]⟩
abbrev SP : Shape := ⟨2, ![8, 4096]⟩
abbrev SB : Shape := ⟨1, ![8]⟩
abbrev S0 : Shape := ⟨0, ![]⟩

/-- A cloud: 8 batches of 4096 points of three coordinates. -/
abbrev Cloud := SC.Idx → EReal

/-- The three float literals of the distance, kept as their words: 2, 0 and +∞. -/
abbrev two : EReal := Ideal.ofBits .f32 0x40000000#32
abbrev zero : EReal := Ideal.ofBits .f32 0x00000000#32
abbrev pinf : EReal := Ideal.ofBits .f32 0x7F800000#32

/-- |p|² of point n of batch b. -/
def sqn (a : Cloud) (b : Fin 8) (n : Fin 4096) : EReal := ∑ k : Fin 3, a (ix3 b n k) * a (ix3 b n k)

/-- p·q of point n of the first cloud and point m of the second, in batch b. -/
def inner (a0 a1 : Cloud) (b : Fin 8) (n m : Fin 4096) : EReal := ∑ k : Fin 3, a0 (ix3 b n k) * a1 (ix3 b m k)

/-- The clamped squared distance by the expansion (|p|² + |q|²) − 2·(p·q). -/
def dist (a0 a1 : Cloud) (b : Fin 8) (n m : Fin 4096) : EReal :=
  max ((sqn a0 b n + sqn a1 b m) - two * inner a0 a1 b n m) zero

/-- Distance from point n of the first cloud to its nearest neighbour in the second. -/
def rowv (a0 a1 : Cloud) (b : Fin 8) (n : Fin 4096) : EReal :=
  Ideal.sqrt ((Finset.univ : Finset (Fin 4096)).fold min pinf fun m => dist a0 a1 b n m)

/-- Distance from point m of the second cloud to its nearest neighbour in the first. -/
def colv (a0 a1 : Cloud) (b : Fin 8) (m : Fin 4096) : EReal :=
  Ideal.sqrt ((Finset.univ : Finset (Fin 4096)).fold min pinf fun n => dist a0 a1 b n m)

/-- Two [8,4096] arrays that agree at every pair of coordinates are equal. -/
theorem ext_SP {X Y : SP.Idx → EReal} (h : ∀ (b : Fin 8) (n : Fin 4096), X (ix2 b n) = Y (ix2 b n)) : X = Y := by
  funext i; rw [eq_ix2 i]; exact h _ _

/-- The mean of means both programs end with: each [8,4096] array summed along its rows and divided
    by 4096, the two added, summed over the batch and divided by 8. -/
def tail (r c : FVec Ideal SP .f32) : FVec Ideal S0 .f32 :=
  Host.divf (F := Ideal)
    (Host.reduceAdd (F := Ideal)
      (addf
        (Host.divf (F := Ideal)
          (Host.reduceAdd (F := Ideal) r (constant (F := Ideal) S0 .f32 0x00000000#32)
            (by decide : SP.ReducesTo [1] SB) (by decide : 0 < S0.numel))
          (broadcastInDim SB ![] (by decide : S0.BroadcastsInDim SB (![] : Fin 0 → Fin SB.rank))
            (constant (F := Ideal) S0 .f32 0x45800000#32)))
        (Host.divf (F := Ideal)
          (Host.reduceAdd (F := Ideal) c (constant (F := Ideal) S0 .f32 0x00000000#32)
            (by decide : SP.ReducesTo [1] SB) (by decide : 0 < S0.numel))
          (broadcastInDim SB ![] (by decide : S0.BroadcastsInDim SB (![] : Fin 0 → Fin SB.rank))
            (constant (F := Ideal) S0 .f32 0x45800000#32))))
      (constant (F := Ideal) S0 .f32 0x00000000#32)
      (by decide : SB.ReducesTo [0] S0) (by decide : 0 < S0.numel))
    (constant (F := Ideal) S0 .f32 0x41000000#32)

end Cert.Chamfer

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.KPay.lean ====
/-
  The kernel body's arithmetic on one tile, read at an index.  With x0 the [1, 256, 3] block of the first cloud and
  x1 the [1, 3, 4096] block of the transposed second cloud, the body forms the [256, 4096] array of clamped squared
  distances  d(r, c) = max((Σ_k x0[0,r,k]² + Σ_k x1[0,k,c]²) − 2·Σ_k x0[0,r,k]·x1[0,k,c], 0),  the square root of each
  row's minimum (taken from +∞), and the minimum of a running row with each column's minimum (taken from +∞).  Each
  value the body stores is one term over the values it loaded; here each such term is evaluated at explicit
  coordinates: the pointwise operations by definition, and one small lemma for each operation that moves or combines
  elements (a cast that adds or drops a unit axis, a column or row spread over the tile, a sum or a minimum along one
  axis, the product of a 256 × 3 by a 3 × 4096 array).
-/
import proofs.«146663_j7301444403296_2_alg».proof.Proof.Gen.KernelIdeal.Skeleton
import proofs.«146663_j7301444403296_2_alg».proof.Proof.Spec
import proofs.«146663_j7301444403296_2_alg».proof.Proof.LibPlainDot
import proofs.«146663_j7301444403296_2_alg».proof.Proof.LibUnitAxes
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## One lemma per operation that is not pointwise, at explicit coordinates -/

/-- A one-axis array of length a cast to a column [a, 1] reads, at (p, u), the array at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A sum over the second axis of an [a, b] array, read at p: the sum over k < b of the array at (p, k). -/
theorem sum_axis1_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A sum over the first axis of an [a, b] array, read at c: the sum over k < a of the array at (k, c). -/
theorem sum_axis0_apply {a b : ℕ} (src : FVec Ideal (⟨2, ![a, b]⟩ : Shape) .f32)
    (h : (⟨2, ![a, b]⟩ : Shape).Reduces [0] ⟨1, ![b]⟩) (hφ : FKind.Formats .f32)
    (hacc : (0x00000000#32 : BitVec 32) = 0x00000000#32) (c : Fin b) :
    multiReduction (F := Ideal) .add [0] ⟨1, ![b]⟩ src 0x00000000#32 h hφ hacc (ix1 c) = ∑ k : Fin a, src (ix2 k c) :=
  (Ideal.multiReduction_add_single src _ h hφ hacc (ix1 c)).trans
    (Finset.sum_congr rfl fun k _ => congrArg src (funext fun ax => Fin.ext (by
      match ax with
      | ⟨0, _⟩ => rfl
      | ⟨1, _⟩ => rfl)))

/-- A minimum over one axis, read at an index: the fold of min from the accumulator's value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A minimum from +∞ over the second axis of an [a, b] array, read at p. -/
theorem min_axis1_apply {a b : ℕ} (src : FVec Ideal (⟨2, ![a, b]⟩ : Shape) .f32)
    (h : (⟨2, ![a, b]⟩ : Shape).Reduces [1] ⟨1, ![a]⟩) (hφ : FKind.Formats .f32)
    (hacc : (0x7F800000#32 : BitVec 32) = 0x7F800000#32) (p : Fin a) :
    multiReduction (F := Ideal) .minimumf [1] ⟨1, ![a]⟩ src 0x7F800000#32 h hφ hacc (ix1 p)
      = (Finset.univ : Finset (Fin b)).fold min (Ideal.ofBits .f32 0x7F800000#32) fun k => src (ix2 p k) :=
  (multiReduction_minimumf_single src _ h hφ hacc (ix1 p)).trans
    (Finset.fold_congr fun k _ => congrArg src (funext fun ax => Fin.ext (by
      match ax with
      | ⟨0, _⟩ => rfl
      | ⟨1, _⟩ => rfl)))

/-- A minimum from +∞ over the first axis of an [a, b] array, read at c. -/
theorem min_axis0_apply {a b : ℕ} (src : FVec Ideal (⟨2, ![a, b]⟩ : Shape) .f32)
    (h : (⟨2, ![a, b]⟩ : Shape).Reduces [0] ⟨1, ![b]⟩) (hφ : FKind.Formats .f32)
    (hacc : (0x7F800000#32 : BitVec 32) = 0x7F800000#32) (c : Fin b) :
    multiReduction (F := Ideal) .minimumf [0] ⟨1, ![b]⟩ src 0x7F800000#32 h hφ hacc (ix1 c)
      = (Finset.univ : Finset (Fin a)).fold min (Ideal.ofBits .f32 0x7F800000#32) fun k => src (ix2 k c) :=
  (multiReduction_minimumf_single src _ h hφ hacc (ix1 c)).trans
    (Finset.fold_congr fun k _ => congrArg src (funext fun ax => Fin.ext (by
      match ax with
      | ⟨0, _⟩ => rfl
      | ⟨1, _⟩ => rfl)))

/-! ## The tile's product -/

/-- The left operand's index of the tile's product keeps the output's row. -/
theorem dot_lhs0 (j : S256x4096.Idx) (k : dot_S256x3_S3x4096_S256x4096_1_0_0_1_n_n.contr.Idx) :
    (dot_S256x3_S3x4096_S256x4096_1_0_0_1_n_n.lhsIdx j k 0).val = (j 0).val := by
  unfold DotDims.lhsIdx
  rw [dif_neg (show ¬(0 : Fin S256x3.rank) ∈ dot_S256x3_S3x4096_S256x4096_1_0_0_1_n_n.lhsBatch by decide),
    dif_pos (show (0 : Fin S256x3.rank) ∈ dot_S256x3_S3x4096_S256x4096_1_0_0_1_n_n.lhsNonContracting by decide)]
  rfl

/-- The right operand's index of the tile's product keeps the output's column. -/
theorem dot_rhs1 (j : S256x4096.Idx) (k : dot_S256x3_S3x4096_S256x4096_1_0_0_1_n_n.contr.Idx) :
    (dot_S256x3_S3x4096_S256x4096_1_0_0_1_n_n.rhsIdx j k 1).val = (j 1).val := by
  unfold DotDims.rhsIdx
  rw [dif_neg (show ¬(1 : Fin S3x4096.rank) ∈ dot_S256x3_S3x4096_S256x4096_1_0_0_1_n_n.rhsBatch by decide),
    dif_pos (show (1 : Fin S3x4096.rank) ∈ dot_S256x3_S3x4096_S256x4096_1_0_0_1_n_n.rhsNonContracting by decide)]
  rfl

/-- The tile's product into the zero accumulator at (r, c): the sum over k < 3 of left(r, k) · right(k, c). -/
theorem dot_apply (lhs : FVec Ideal S256x3 .f32) (rhs : FVec Ideal S3x4096 .f32) (r : Fin 256) (c : Fin 4096) :
    matmul dot_S256x3_S3x4096_S256x4096_1_0_0_1_n_n (some .fp32) lhs rhs (constant (F := Ideal) S256x4096 .f32 0x00000000#32) (ix2 r c)
      = ∑ k : Fin 3, lhs (ix2 r k) * rhs (ix2 k c) :=
  Cert.LibPlainDot.matmul_zero_apply dot_S256x3_S3x4096_S256x4096_1_0_0_1_n_n rfl rfl rfl rfl dot_lhs0 dot_rhs1
    (some .fp32) lhs rhs r c

/-! ## The payloads at an index -/

/-- The clamped squared distance between row r of the tile of the first cloud and column c of the transposed second cloud. -/
def tdist (x0 : Vec Ideal S1x256x3 .f32) (x1 : Vec Ideal S1x3x4096 .f32) (r : Fin 256) (c : Fin 4096) : EReal :=
  max (((∑ k : Fin 3, x0 (ix3 (0 : Fin 1) r k) * x0 (ix3 (0 : Fin 1) r k)) + (∑ k : Fin 3, x1 (ix3 (0 : Fin 1) k c) * x1 (ix3 (0 : Fin 1) k c)))
        - Cert.Chamfer.two * (∑ k : Fin 3, x0 (ix3 (0 : Fin 1) r k) * x1 (ix3 (0 : Fin 1) k c))) Cert.Chamfer.zero

theorem pay4_apply (x0 : Vec Ideal S1x256x3 .f32) (x1 : Vec Ideal S1x3x4096 .f32) (r : Fin 256) (c : Fin 4096) :
    k0_pay4 (F := Ideal) x0 x1 (ix2 r c) = tdist x0 x1 r c := by
  unfold k0_pay4 tdist
  dsimp only []
  rw [maximumf_apply, subf_apply, addf_apply, mulf_apply, broadcast_apply, broadcast_apply]
  rw [Cert.LibUnitAxes.broadcastTo_a1_ab_apply, shapeCast_a_a1_apply, sum_axis1_apply,
    broadcastTo_1b_ab_apply, shapeCast_a_1a_apply, sum_axis0_apply, dot_apply]
  simp only [mulf_apply, shapeCast_1ab_ab_apply]
  rfl

/-- The square root of an array, read at an index. -/
theorem sqrt_apply {s : Shape} {φ : FTy} (v : FVec Ideal s φ) (i : s.Idx) :
    Idealize.ShloMosaic.sqrt v i = Ideal.sqrt (v i) := rfl

theorem pay5_apply (x0 : Vec Ideal S1x256x3 .f32) (x1 : Vec Ideal S1x3x4096 .f32) (r : Fin 256) :
    k0_pay5 (F := Ideal) x0 x1 (ix3 (0 : Fin 1) r (0 : Fin 1))
      = Ideal.sqrt ((Finset.univ : Finset (Fin 4096)).fold min Cert.Chamfer.pinf fun c => tdist x0 x1 r c) := by
  unfold k0_pay5
  dsimp only []
  rw [shapeCast_ab_1ab_apply, sqrt_apply, shapeCast_a_a1_apply, min_axis1_apply]
  simp only [pay4_apply]

theorem pay6_apply (x0 : Vec Ideal S1x256x3 .f32) (x1 : Vec Ideal S1x3x4096 .f32) (xs : Vec Ideal S1x4096 .f32) (c : Fin 4096) :
    k0_pay6 (F := Ideal) x0 x1 xs (ix2 (0 : Fin 1) c)
      = min (xs (ix2 (0 : Fin 1) c)) ((Finset.univ : Finset (Fin 256)).fold min Cert.Chamfer.pinf fun r => tdist x0 x1 r c) := by
  unfold k0_pay6
  dsimp only []
  rw [minimumf_apply, shapeCast_a_1a_apply, min_axis0_apply]
  simp only [pay4_apply]

theorem pay3_apply (c : Fin 4096) : k0_pay3 (F := Ideal) (ix2 (0 : Fin 1) c) = Cert.Chamfer.pinf := by
  unfold k0_pay3
  rw [shapeCast_self]
  rfl

theorem pay1_eq (v : FVec Ideal S1x4096 .f32) : k0_pay1 (F := Ideal) v = v := by
  unfold k0_pay1
  exact shapeCast_self v _

theorem pay2_apply (v : Vec Ideal S1x4096 .f32) (c : Fin 4096) :
    k0_pay2 (F := Ideal) v (ix3 (0 : Fin 1) (0 : Fin 1) c) = Ideal.sqrt (v (ix2 (0 : Fin 1) c)) := by
  unfold k0_pay2
  rw [shapeCast_ab_1ab_apply, sqrt_apply]

end Cert.KernelIdeal.Pay

end
-- ==== Proof.LibMinFromInf.lean ====
/-
  A minimum taken from +∞ over a finite family of extended reals, carried by its universal property.

  A float minimum-reduction whose initial value is the f32 word of +∞ (0x7F800000) reads, at the ideal
  values, as `Finset.univ.fold min (Ideal.ofBits .f32 0x7F800000#32) f`.  That word denotes ⊤, so a
  number is below such a minimum exactly when it is below every member (`le_minfold`), and below
  `min (+∞) x` exactly when it is below `x` (`le_min_pinf`).  Two extended reals with the same lower
  bounds are equal (`eq_of_le_iff`), so a minimum assembled piece by piece — a running minimum
  carried across tiles, restarted from +∞ — equals the minimum over the whole range as soon as the
  two have the same members: no algebra of finite sets is needed, only which members each side has.
-/
import Idealize.ShloMosaic.PureOps.Ideal

noncomputable section

namespace Cert.LibMinFromInf

open Idealize.ShloMosaic

/-- The f32 word of +∞ denotes the top of the extended reals. -/
theorem pinf32_eq_top : Ideal.ofBits .f32 0x7F800000#32 = (⊤ : EReal) := by
  simp [Ideal.ofBits, Ideal.ieee]

/-- Below a minimum from +∞ means below every member. -/
theorem le_minfold {n : ℕ} (f : Fin n → EReal) (z : EReal) :
    z ≤ (Finset.univ : Finset (Fin n)).fold min (Ideal.ofBits .f32 0x7F800000#32) f ↔ ∀ k : Fin n, z ≤ f k := by
  rw [Finset.le_fold_min, pinf32_eq_top]
  simp

/-- Below the minimum of +∞ and a number means below the number. -/
theorem le_min_pinf (x z : EReal) : z ≤ min (Ideal.ofBits .f32 0x7F800000#32) x ↔ z ≤ x := by
  rw [pinf32_eq_top, le_min_iff]
  simp

/-- Two extended reals with the same lower bounds are equal. -/
theorem eq_of_le_iff {x y : EReal} (h : ∀ z : EReal, z ≤ x ↔ z ≤ y) : x = y :=
  le_antisymm ((h x).mp le_rfl) ((h y).mpr le_rfl)

end Cert.LibMinFromInf

end
-- ==== Proof.KInv.lean ====
/-
  The values the kernel leaves, in terms of the two clouds.  A grid point of batch b and tile j
  computes the clamped squared distances between rows 256·j … 256·j + 255 of the first cloud and
  every point of the second.  Its row output is each such row's nearest-neighbour distance.  The
  running column minimum after tile j is characterised by its lower bounds: a number is below it
  exactly when it is below the distance from every row before 256·(j + 1); so after the last tile
  it is the minimum over the whole first cloud, and the column output is its square root.
-/
import proofs.«146663_j7301444403296_2_alg».proof.Proof.KPoints
import proofs.«146663_j7301444403296_2_alg».proof.Proof.KBlocks
import proofs.«146663_j7301444403296_2_alg».proof.Proof.KPay
import proofs.«146663_j7301444403296_2_alg».proof.Proof.LibMinFromInf
import Idealize.ShloMosaic.Lib.ValueIdx

noncomputable section

open Idealize.ShloMosaic Idealize.ShloMosaic.TcCoe Idealize.SL.Sem

namespace Cert.KernelIdeal.Inv

open Cert.KernelIdeal Cert.KernelIdeal.Gen Idealize.ShloMosaic.ValueIdx
open Cert.KernelIdeal.Blocks Cert.KernelIdeal.Points Cert.KernelIdeal.Pay Cert.Chamfer Cert.LibMinFromInf

variable (m : (ℓ : Loc nD τ sig) → Buf (Elt Ideal) ℓ)

/-- The two clouds as launched. -/
abbrev A0 (c : Dev nD) : Cloud := m ((c : Thread nD τ).loc main_arg0)
abbrev A1 (c : Dev nD) : Cloud := m ((c : Thread nD τ).loc main_arg1)

/-- The tile's distance between its row r and point q is the clouds' distance between row
    256·(t % 16) + r and point q, in batch t / 16. -/
theorem tdist_eq (c : Dev nD) (t : Fin cfg0.N) (r : Fin 256) (q : Fin 4096) :
    tdist (iblk m c 0 t) (iblk m c 1 t) r q = Cert.Chamfer.dist (A0 m c) (A1 m c) (batch t) (row t r) q := by
  have hA0 : ∀ k : Fin 3, (iblk m c 0 t : Vec Ideal S1x256x3 .f32) (ix3 (0 : Fin 1) r k)
      = A0 m c (ix3 (batch t) (row t r) k) :=
    fun k => (iblk0_apply m c t r k).trans (congrFun (V_main_arg0 m c) _)
  have hA1 : ∀ k : Fin 3, (iblk m c 1 t : Vec Ideal S1x3x4096 .f32) (ix3 (0 : Fin 1) k q)
      = A1 m c (ix3 (batch t) q k) :=
    fun k => (iblk1_apply m c t k q).trans (V_v0_apply m c (batch t) k q)
  unfold tdist Cert.Chamfer.dist Cert.Chamfer.sqn Cert.Chamfer.inner
  simp only [hA0, hA1]

/-- The row output: each tile row's nearest-neighbour distance. -/
theorem row_value (c : Dev nD) (t : Fin cfg0.N) (r : Fin 256) :
    k0_pay5 (F := Ideal) (iblk m c 0 t) (iblk m c 1 t) (ix3 (0 : Fin 1) r (0 : Fin 1))
      = rowv (A0 m c) (A1 m c) (batch t) (row t r) := by
  refine (pay5_apply (iblk m c 0 t) (iblk m c 1 t) r).trans ?_
  unfold rowv
  simp only [tdist_eq]

/-- THE RUNNING MINIMUM by its lower bounds: after point n (tile n % 16 of batch n / 16) a number is
    below the running column minimum at q iff it is below the distance to q from every row before
    256·(n % 16 + 1). -/
theorem acc_le (c : Dev nD) : ∀ (n : ℕ) (h : n < cfg0.N) (q : Fin 4096) (z : EReal),
    z ≤ (outsAt0 m c n h).2.2 (ix2 (0 : Fin 1) q) ↔
      ∀ p : Fin 4096, p.val < 256 * (n % 16 + 1) → z ≤ Cert.Chamfer.dist (A0 m c) (A1 m c) (batch ⟨n, h⟩) p q := by
  intro n
  induction n using Nat.strong_induction_on with
  | _ n ih =>
    intro h q z
    have hN : n < 128 := lt_of_lt_of_eq h N128
    by_cases h0 : n % 16 = 0
    · -- the first tile of a batch: the minimum restarts from +∞
      have e : (outsAt0 m c n h).2.2 = k0_pay1 (k0_pay6 (iblk m c 0 ⟨n, h⟩) (iblk m c 1 ⟨n, h⟩) (k0_pay3 (F := Ideal))) :=
        acc_first m c ⟨n, h⟩ h0
      rw [e, pay1_eq, pay6_apply (iblk m c 0 ⟨n, h⟩) (iblk m c 1 ⟨n, h⟩) (k0_pay3 (F := Ideal)) q, pay3_apply, le_min_pinf,
        le_minfold]
      simp only [tdist_eq]
      constructor
      · intro H p hp
        have hp' : p.val < 256 := by omega
        have e2 : row ⟨n, h⟩ ⟨p.val, hp'⟩ = p := Fin.ext (by unfold row; dsimp only; omega)
        rw [← e2]; exact H ⟨p.val, hp'⟩
      · intro H r
        exact H (row ⟨n, h⟩ r) (by unfold row; dsimp only; have := r.isLt; omega)
    · -- a later tile: the minimum continues from the previous point's
      have hlt : n - 1 < cfg0.N := Nat.lt_of_le_of_lt (Nat.sub_le _ _) h
      have e : (outsAt0 m c n h).2.2
          = k0_pay1 (k0_pay6 (iblk m c 0 ⟨n, h⟩) (iblk m c 1 ⟨n, h⟩) (outsAt0 m c (n - 1) hlt).2.2) :=
        acc_next m c ⟨n, h⟩ h0
      have hb : batch ⟨n - 1, hlt⟩ = batch ⟨n, h⟩ := Fin.ext (by unfold batch; dsimp only; omega)
      rw [e, pay1_eq, pay6_apply (iblk m c 0 ⟨n, h⟩) (iblk m c 1 ⟨n, h⟩) (outsAt0 m c (n - 1) hlt).2.2 q, le_min_iff,
        ih (n - 1) (by omega) hlt q z, le_minfold, hb]
      simp only [tdist_eq]
      constructor
      · rintro ⟨H1, H2⟩ p hp
        by_cases hp1 : p.val < 256 * ((n - 1) % 16 + 1)
        · exact H1 p hp1
        · have hp' : p.val - 256 * (n % 16) < 256 := by omega
          have e2 : row ⟨n, h⟩ ⟨p.val - 256 * (n % 16), hp'⟩ = p := Fin.ext (by unfold row; dsimp only; omega)
          rw [← e2]; exact H2 ⟨p.val - 256 * (n % 16), hp'⟩
      · intro H
        refine ⟨fun p hp => H p (by omega), fun r => H (row ⟨n, h⟩ r) ?_⟩
        unfold row; dsimp only; have := r.isLt; omega

/-- The column output after the last tile of a batch: each point's nearest-neighbour distance to the
    whole first cloud. -/
theorem col_value (c : Dev nD) (t : Fin cfg0.N) (h1 : t.val % 16 = 15) (q : Fin 4096) :
    (outsAt0 m c t.val t.isLt).2.1 (ix3 (0 : Fin 1) (0 : Fin 1) q) = colv (A0 m c) (A1 m c) (batch t) q := by
  rw [col_out m c t h1]
  refine (pay2_apply _ q).trans ?_
  unfold colv
  refine congrArg Ideal.sqrt (eq_of_le_iff fun z => ?_)
  rw [acc_le m c t.val t.isLt q z, le_minfold]
  constructor
  · intro H p; exact H p (by have := p.isLt; omega)
  · intro H p _; exact H p

end Cert.KernelIdeal.Inv

end
-- ==== Proof.KFinal.lean ====
/-
  From blocks to arrays.  The row output's blocks tile its [8,4096,1] array (point t writes rows
  256·(t % 16) … of batch t / 16), and what each point writes is the nearest-neighbour distance of
  those rows; the column output is written back once per batch, after the batch's last tile, and
  that block is the whole [1,4096] row of the batch.  So after the run each array is one function of
  the two clouds.
-/
import proofs.«146663_j7301444403296_2_alg».proof.Proof.KInv
import Idealize.ShloMosaic.Lib.Pipeline.Value

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx
open Cert.KernelIdeal.Blocks Cert.KernelIdeal.Points Cert.KernelIdeal.Inv Cert.Chamfer

variable (m : (ℓ : Loc nD τ sig) → Buf (Elt Ideal) ℓ)

/-- The row output array: entry (b, n, 0) is point n's nearest-neighbour distance in batch b. -/
def Grow (a0 a1 : Cloud) : S8x4096x1.Idx → EReal :=
  fun i => rowv a0 a1 ⟨(i 0).val, (i 0).isLt⟩ ⟨(i 1).val, (i 1).isLt⟩

/-- The column output array: entry (b, 0, q) is point q's nearest-neighbour distance in batch b. -/
def Gcol (a0 a1 : Cloud) : S8x1x4096.Idx → EReal :=
  fun i => colv a0 a1 ⟨(i 0).val, (i 0).isLt⟩ ⟨(i 2).val, (i 2).isLt⟩

theorem Grow_apply (a0 a1 : Cloud) (i : S8x4096x1.Idx) (b : Fin 8) (n : Fin 4096) (hb : (i 0).val = b.val)
    (hn : (i 1).val = n.val) : Grow a0 a1 i = rowv a0 a1 b n := by
  unfold Grow
  rw [show (⟨(i 0).val, (i 0).isLt⟩ : Fin 8) = b from Fin.ext hb, show (⟨(i 1).val, (i 1).isLt⟩ : Fin 4096) = n from Fin.ext hn]

theorem Gcol_apply (a0 a1 : Cloud) (i : S8x1x4096.Idx) (b : Fin 8) (q : Fin 4096) (hb : (i 0).val = b.val)
    (hq : (i 2).val = q.val) : Gcol a0 a1 i = colv a0 a1 b q := by
  unfold Gcol
  rw [show (⟨(i 0).val, (i 0).isLt⟩ : Fin 8) = b from Fin.ext hb, show (⟨(i 2).val, (i 2).isLt⟩ : Fin 4096) = q from Fin.ext hq]

/-! ## The row output -/

/-- What point t writes back to the row output is block t of `Grow`. -/
theorem flushed2_eq (c : Dev nD) (t : Fin cfg0.N) :
    (dats m 0 c).flushed 2 t = ((cfg0.win 2).blk t).view.read (Elt Ideal) (Grow (A0 m c) (A1 m c)) := by
  show (cfg0.win 2).cut (grid0.coords t) ((dats m 0 c).after 2 t) = _
  rw [after0_2, row_out m c t]
  obtain ⟨-, -, -, -, -, -, e0, e1, e2, -⟩ := idx_facts t
  funext j
  have hj0 : (j 0).val < 1 := (j 0).isLt
  have hj1 : (j 1).val < 256 := (j 1).isLt
  have hj2 : (j 2).val < 1 := (j 2).isLt
  obtain ⟨r, rfl⟩ : ∃ r : Fin 256, j = ix3 (0 : Fin 1) r (0 : Fin 1) :=
    ⟨⟨(j 1).val, hj1⟩, funext fun a => Fin.ext (by
      match a with
      | ⟨0, _⟩ => show (j 0).val = 0; omega
      | ⟨1, _⟩ => rfl
      | ⟨2, _⟩ => show (j 2).val = 0; omega)⟩
  show k0_pay5 (F := Ideal) (iblk m c 0 t) (iblk m c 1 t) (ix3 (0 : Fin 1) r (0 : Fin 1))
    = Grow (A0 m c) (A1 m c) (((cfg0.win 2).blk t).view.emb (ix3 (0 : Fin 1) r (0 : Fin 1)))
  refine (row_value m c t r).trans (Grow_apply _ _ _ (batch t) (row t r) ?_ ?_).symm
  · show win0_2.index t (0 : Fin 3) * 1 + 1 * 0 = t.val / 16; omega
  · show win0_2.index t (1 : Fin 3) * 256 + 1 * r.val = 256 * (t.val % 16) + r.val; omega

/-- An index of the row array is in point t's block iff each coordinate is in the block's range. -/
theorem mem_blk2 (t : Fin cfg0.N) (i : S8x4096x1.Idx) :
    i ∈ ((cfg0.win 2).blk t).view.set ↔ ∀ a : Fin 3, win0_2.index t a * S1x256x1.size a ≤ (i a).val
      ∧ (i a).val < win0_2.index t a * S1x256x1.size a + S1x256x1.size a := by
  show i ∈ ((View.whole main_v1_0).slice (win0_2.rect t)).set ↔ _
  rw [View.set_slice_whole, Rect.mem_set_unit]
  exact Iff.rfl

/-- Every row of every batch is in the block of the point of its batch and tile. -/
theorem cover2 (i : S8x4096x1.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 1 := (i 2).isLt
  have hN := N128
  let t : Fin cfg0.N := ⟨16 * (i 0).val + (i 1).val / 256, by omega⟩
  have ht : t.val = 16 * (i 0).val + (i 1).val / 256 := rfl
  obtain ⟨-, -, -, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1 ≤ (i 2).val ∧ (i 2).val < win0_2.index t (2 : Fin 3) * 1 + 1; omega

/-- The row output array after the run. -/
theorem final2 (c : Dev nD) : (dats m 0 c).arrAt 2 cfg0.N = Grow (A0 m c) (A1 m c) :=
  (dats m 0 c).arrAt_eq_of_cover 2 (Grow (A0 m c) (A1 m c)) (fun t _ => flushed2_eq m c t) cover2

/-! ## The column output -/

/-- What the last tile of a batch writes back to the column output is that batch's block of `Gcol`. -/
theorem flushed3_eq (c : Dev nD) (t : Fin cfg0.N) (hf : (cfg0.win 3).flush t = true) :
    (dats m 0 c).flushed 3 t = ((cfg0.win 3).blk t).view.read (Elt Ideal) (Gcol (A0 m c) (A1 m c)) := by
  have h1 : t.val % 16 = 15 := (flush0_3 t).mp hf
  show (cfg0.win 3).cut (grid0.coords t) ((dats m 0 c).after 3 t) = _
  rw [after0_3]
  obtain ⟨-, -, -, -, -, -, -, -, -, e0, e1, e2⟩ := idx_facts t
  funext j
  have hj0 : (j 0).val < 1 := (j 0).isLt
  have hj1 : (j 1).val < 1 := (j 1).isLt
  have hj2 : (j 2).val < 4096 := (j 2).isLt
  obtain ⟨q, rfl⟩ : ∃ q : Fin 4096, j = ix3 (0 : Fin 1) (0 : Fin 1) q :=
    ⟨⟨(j 2).val, hj2⟩, funext fun a => Fin.ext (by
      match a with
      | ⟨0, _⟩ => show (j 0).val = 0; omega
      | ⟨1, _⟩ => show (j 1).val = 0; omega
      | ⟨2, _⟩ => rfl)⟩
  show (outsAt0 m c t.val t.isLt).2.1 (ix3 (0 : Fin 1) (0 : Fin 1) q)
    = Gcol (A0 m c) (A1 m c) (((cfg0.win 3).blk t).view.emb (ix3 (0 : Fin 1) (0 : Fin 1) q))
  refine (col_value m c t h1 q).trans (Gcol_apply _ _ _ (batch t) q ?_ ?_).symm
  · show win0_3.index t (0 : Fin 3) * 1 + 1 * 0 = t.val / 16; omega
  · show win0_3.index t (2 : Fin 3) * 4096 + 1 * q.val = q.val; omega

/-- An index of the column array is in point t's block iff each coordinate is in the block's range. -/
theorem mem_blk3 (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Every entry of a batch's row is in the block its last tile writes back. -/
theorem cover3 (i : S8x1x4096.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 4096 := (i 2).isLt
  have hN := N128
  let t : Fin cfg0.N := ⟨16 * (i 0).val + 15, by omega⟩
  have ht : t.val = 16 * (i 0).val + 15 := rfl
  obtain ⟨-, -, -, -, -, -, -, -, -, e0, e1, e2⟩ := idx_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

/-- The column output array after the run. -/
theorem final3 (c : Dev nD) : (dats m 0 c).arrAt 3 cfg0.N = Gcol (A0 m c) (A1 m c) :=
  (dats m 0 c).arrAt_eq_of_cover 3 (Gcol (A0 m c) (A1 m c)) (flushed3_eq m c) cover3

end Cert.KernelIdeal.Final

end
-- ==== Proof.KTail.lean ====
/-
  The kernel program's host operations after its region: two reshapes of the region's results, then the mean of means.
-/
import proofs.«146663_j7301444403296_2_alg».proof.Proof.Gen.KernelIdeal.Frame
import proofs.«146663_j7301444403296_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.Tail

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The two result arrays of the region are what the later operations read, and those operations are the mean of
    means of the two arrays reshaped to [8, 4096]. -/
theorem tail_value (c : Dev nD) (R : S8x4096x1.Idx → EReal) (C : S8x1x4096.Idx → EReal)
    (hR : (dats m 0 c).arrAt 2 cfg0.N = R) (hC : (dats m 0 c).arrAt 3 cfg0.N = C) :
    Pipeline.afterTail₀ cfgs (dats m) 0 (V0 m) [hostOps1] c main_v12
      = Cert.Chamfer.tail (shapeCast S8x4096 R Facts₀.shapeCasts_S8x4096x1_S8x4096) (shapeCast S8x4096 C Facts₀.shapeCasts_S8x1x4096_S8x4096) := by
  unfold Pipeline.afterTail₀
  show StableHlo.after hostOps1 _ (Proc.devRef .tc main_v12) = _
  after_results
  have eR : Pipeline.withArrays (cfgs 0).spec c (V0 m c) (fun w => (dats m 0 c).arrAt w (cfgs 0).N) (Proc.devRef .tc main_v1_0) = R :=
    (Pipeline.withArrays_arr spec0 launch0.win.arr_inj c _ _ 2).trans hR
  have eC : Pipeline.withArrays (cfgs 0).spec c (V0 m c) (fun w => (dats m 0 c).arrAt w (cfgs 0).N) (Proc.devRef .tc main_v1_1) = C :=
    (Pipeline.withArrays_arr spec0 launch0.win.arr_inj c _ _ 3).trans hC
  rw [eR, eC]
  rfl

/-- Dropping the trailing unit axis of an [8, 4096, 1] array moves no element. -/
theorem reshape_row (R : S8x4096x1.Idx → EReal) (b : Fin 8) (n : Fin 4096) :
    shapeCast S8x4096 R Facts₀.shapeCasts_S8x4096x1_S8x4096 (ix2 b n) = R (ix3 b n (0 : Fin 1)) :=
  shapeCast_apply R _ (ix2 b n) (ix3 b n (0 : Fin 1)) (by
    rw [Shape.rowMajor_val_three, Shape.rowMajor_val_two]
    show (b.val * 4096 + n.val) * 1 + 0 = b.val * 4096 + n.val
    omega)

/-- Dropping the middle unit axis of an [8, 1, 4096] array moves no element. -/
theorem reshape_col (C : S8x1x4096.Idx → EReal) (b : Fin 8) (q : Fin 4096) :
    shapeCast S8x4096 C Facts₀.shapeCasts_S8x1x4096_S8x4096 (ix2 b q) = C (ix3 b (0 : Fin 1) q) :=
  shapeCast_apply C _ (ix2 b q) (ix3 b (0 : Fin 1) q) (by
    rw [Shape.rowMajor_val_three, Shape.rowMajor_val_two]
    show (b.val * 1 + 0) * 4096 + q.val = b.val * 4096 + q.val
    omega)

end Cert.KernelIdeal.Tail

end
-- ==== Proof.KRun.lean ====
/-
  The kernel program's run, read: its scalar result is the mean of means of the two arrays of
  nearest-neighbour distances, and its two arguments end unchanged.
-/
import proofs.«146663_j7301444403296_2_alg».proof.Proof.KFinal
import proofs.«146663_j7301444403296_2_alg».proof.Proof.KTail

noncomputable section

open Idealize.ShloMosaic Idealize.ShloMosaic.TcCoe Idealize.SL.Sem
open Idealize.ShloMosaic.Pipeline (Dat)

namespace Cert.KernelIdeal.Run

open Cert.KernelIdeal Cert.KernelIdeal.Gen Idealize.ShloMosaic.ValueIdx
open Cert.KernelIdeal.Inv Cert.KernelIdeal.Final Cert.Chamfer

variable (m : (ℓ : Loc nD τ sig) → Buf (Elt Ideal) ℓ) (ρ : Dev nD → PrngReg)

/-- The loss of two clouds: the mean of means of the two arrays of nearest-neighbour distances,
    each reshaped from its keep-dims form to [8,4096]. -/
def loss (a0 a1 : Cloud) : FVec Ideal S_ .f32 :=
  Cert.Chamfer.tail (shapeCast S8x4096 (Grow a0 a1) Facts₀.shapeCasts_S8x4096x1_S8x4096)
    (shapeCast S8x4096 (Gcol a0 a1) Facts₀.shapeCasts_S8x1x4096_S8x4096)

/-- Every weakly fair execution of the kernel program ends with its result at the loss of the two
    clouds as launched, and the clouds unchanged. -/
theorem run : θ_run defs (onTc (τ := τ) (main (F := Ideal))) ⟨m, fun _ => 0, ρ⟩ fun r => ∀ c : Dev nD,
      r.2.mem ((c.tc : Thread nD τ).loc main_v12) = loss (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans
        (Cert.KernelIdeal.Tail.tail_value m c _ _ (final2 m c) (final3 m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Run

end
-- ==== Proof.RefSide.lean ====
/-
  The reference program's result, read one operation at a time.
-/
import proofs.«146663_j7301444403296_2_alg».proof.Defs
import proofs.«146663_j7301444403296_2_alg».proof.Proof.Gen.ReferenceIdeal.Run
import proofs.«146663_j7301444403296_2_alg».proof.Proof.Gen.ReferenceIdeal.Read
import proofs.«146663_j7301444403296_2_alg».proof.Proof.Spec
import Idealize.ShloMosaic.Lib.IdealHost
import Idealize.ShloMosaic.PureOps.Reduce

noncomputable section

open scoped BigOperators

namespace Cert.ReferenceIdeal.RefSide

open Cert.ReferenceIdeal Cert.ReferenceIdeal.Gen Cert.ReferenceIdeal.Read Idealize.ShloMosaic Idealize.ShloMosaic.ValueIdx

/-- The squared norm of the first cloud, broadcast along the columns, reads that cloud at (b, n, k). -/
theorem idx_row (b : Fin 8) (n m : Fin 4096) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

/-- The squared norm of the second cloud, broadcast along the rows, reads that cloud at (b, m, k). -/
theorem idx_col (b : Fin 8) (n m : Fin 4096) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

/-- The inner product at (b, n, m) reads the first cloud at (b, n, k). -/
theorem idx_lhs (b : Fin 8) (n m : Fin 4096) (k : Fin 3) :
    lidx_main_v4 (ix3 b n m) k = ix3 b n k :=
  funext fun a => Fin.ext (by match a with | ⟨0, _⟩ => rfl | ⟨1, _⟩ => rfl | ⟨2, _⟩ => rfl)

/-- The inner product at (b, n, m) reads the second cloud at (b, m, k). -/
theorem idx_rhs (b : Fin 8) (n m : Fin 4096) (k : Fin 3) :
    ridx_main_v4 (ix3 b n m) k = ix3 b m k :=
  funext fun a => Fin.ext (by match a with | ⟨0, _⟩ => rfl | ⟨1, _⟩ => rfl | ⟨2, _⟩ => rfl)

/-- A sum started from the word of zero is the sum. -/
theorem zero_word_add (a : EReal) : Ideal.ofBits .f32 0x00000000#32 + a = a := by
  rw [Ideal.ofBits_zero_f32, zero_add]

/-- The clamped squared distance, element (b, n, m) of the reference's distance matrix. -/
theorem dist_apply (x0 x1 : (⟨S8x4096x3, .f32⟩ : BufTy).Contents (Elt Ideal)) (b : Fin 8) (n m : Fin 4096) :
    val_main_v14 (F := Ideal) x0 x1 (ix3 b n m) = Cert.Chamfer.dist x0 x1 b n m := by
  rw [val_main_v14_apply, val_main_v12_apply, val_main_v9_apply, val_main_v11_apply, val_main_v7_apply,
    val_main_v8_apply, val_main_v5_apply, val_main_v6_apply, val_main_v10_apply, val_main_v13_apply,
    val_main_v1_apply, val_main_v3_apply, val_main_v4_apply, val_main_cst_1_apply, val_main_cst_2_apply,
    val_main_cst_apply, val_main_cst_0_apply]
  simp only [val_main_v0_apply, val_main_v2_apply, idx_row, idx_col, idx_lhs, idx_rhs]
  simp only [Ideal.ofBits_def, Ideal.addf_def, Ideal.subf_def, Ideal.mulf_def, Ideal.maximumf_def]
  rw [zero_word_add, zero_word_add]
  rfl

/-- A minimum along the last axis, at (b, n): the fold of min over m of the element (b, n, m). -/
theorem min_last (y : FVec Ideal S8x4096x4096 .f32) (init : FVec Ideal S_ .f32)
    (b : Fin 8) (n : Fin 4096) :
    Host.reduce (FloatOps.minimumf (F := Ideal) (φ := .f32)) y init reducesTo_S8x4096x4096_S8x4096_d2 h_S_ (ix2 b n)
      = (Finset.univ : Finset (Fin 4096)).fold min (init (Shape.Idx.first h_S_)) (fun m => y (ix3 b n m)) := by
  rw [Host.reduce_eq_fold_single (FloatOps.minimumf (F := Ideal) (φ := .f32)) y init reducesTo_S8x4096x4096_S8x4096_d2 (by decide) h_S_ (ix2 b n)]
  refine Finset.fold_congr (fun m _ => ?_)
  exact congrArg y (funext fun a => Fin.ext (by match a with | ⟨0, _⟩ => rfl | ⟨1, _⟩ => rfl | ⟨2, _⟩ => rfl))

/-- A minimum along the middle axis, at (b, m): the fold of min over n of the element (b, n, m). -/
theorem min_mid (y : FVec Ideal S8x4096x4096 .f32) (init : FVec Ideal S_ .f32)
    (b : Fin 8) (m : Fin 4096) :
    Host.reduce (FloatOps.minimumf (F := Ideal) (φ := .f32)) y init reducesTo_S8x4096x4096_S8x4096_d1 h_S_ (ix2 b m)
      = (Finset.univ : Finset (Fin 4096)).fold min (init (Shape.Idx.first h_S_)) (fun n => y (ix3 b n m)) := by
  rw [Host.reduce_eq_fold_single (FloatOps.minimumf (F := Ideal) (φ := .f32)) y init reducesTo_S8x4096x4096_S8x4096_d1 (by decide) h_S_ (ix2 b m)]
  refine Finset.fold_congr (fun n _ => ?_)
  exact congrArg y (funext fun a => Fin.ext (by match a with | ⟨0, _⟩ => rfl | ⟨1, _⟩ => rfl | ⟨2, _⟩ => rfl))

/-- Element (b, n) of the first cloud's nearest-neighbour distances: the square root of the minimum over m,
    taken from +∞, of the clamped squared distance. -/
theorem row_apply (x0 x1 : (⟨S8x4096x3, .f32⟩ : BufTy).Contents (Elt Ideal)) (b : Fin 8) (n : Fin 4096) :
    val_main_v16 (F := Ideal) x0 x1 (ix2 b n) = Cert.Chamfer.rowv x0 x1 b n := by
  rw [val_main_v16_apply, Ideal.hostUnary_sqrt_def]
  unfold val_main_v15 Cert.Chamfer.rowv
  rw [min_last, val_main_cst_3_apply, Ideal.ofBits_def]
  exact congrArg Ideal.sqrt (Finset.fold_congr (fun m _ => dist_apply x0 x1 b n m))

/-- Element (b, m) of the second cloud's nearest-neighbour distances: the square root of the minimum over n,
    taken from +∞, of the clamped squared distance. -/
theorem col_apply (x0 x1 : (⟨S8x4096x3, .f32⟩ : BufTy).Contents (Elt Ideal)) (b : Fin 8) (m : Fin 4096) :
    val_main_v18 (F := Ideal) x0 x1 (ix2 b m) = Cert.Chamfer.colv x0 x1 b m := by
  rw [val_main_v18_apply, Ideal.hostUnary_sqrt_def]
  unfold val_main_v17 Cert.Chamfer.colv
  rw [min_mid, val_main_cst_4_apply, Ideal.ofBits_def]
  exact congrArg Ideal.sqrt (Finset.fold_congr (fun n _ => dist_apply x0 x1 b n m))

/-- Multiplying a per-batch array by the constant one changes nothing (first mean). -/
theorem one_mul_first (y : FVec Ideal S8 .f32) : mulf (val_main_v22 (F := Ideal)) y = y := by
  funext i
  show FloatOps.mulf (val_main_v22 (F := Ideal) i) (y i) = y i
  rw [val_main_v22_apply, val_main_cst_7_apply, Ideal.ofBits_def, Ideal.ofBits_one_f32, Ideal.mulf_def, one_mul]

/-- Multiplying a per-batch array by the constant one changes nothing (second mean). -/
theorem one_mul_second (y : FVec Ideal S8 .f32) : mulf (val_main_v27 (F := Ideal)) y = y := by
  funext i
  show FloatOps.mulf (val_main_v27 (F := Ideal) i) (y i) = y i
  rw [val_main_v27_apply, val_main_cst_10_apply, Ideal.ofBits_def, Ideal.ofBits_one_f32, Ideal.mulf_def, one_mul]

/-- The reference's result is the mean of means of its two arrays of nearest-neighbour distances: the two
    multiplications by one drop out, and what is left is the shared tail term for term. -/
theorem result_eq (x0 x1 : (⟨S8x4096x3, .f32⟩ : BufTy).Contents (Elt Ideal)) :
    val_main_v31 (F := Ideal) x0 x1 = Cert.Chamfer.tail (val_main_v16 (F := Ideal) x0 x1) (val_main_v18 (F := Ideal) x0 x1) := by
  unfold val_main_v31 val_main_v30 val_main_v29 val_main_v28 val_main_v23 val_main_v26 val_main_v21 val_main_v24 val_main_v19
  generalize val_main_v16 (F := Ideal) x0 x1 = r
  generalize val_main_v18 (F := Ideal) x0 x1 = c
  rw [one_mul_first, one_mul_second]
  rfl

end Cert.ReferenceIdeal.RefSide

end
-- ==== Proof.Bridge.lean ====
/-
  The two programs compute one function.  The reference's two arrays of nearest-neighbour distances
  are, entry by entry, the kernel's two output arrays with their unit axis dropped; and the
  reference's final mean of means is the kernel's, its two multiplications by one being the identity.
-/
import proofs.«146663_j7301444403296_2_alg».proof.Proof.KRun
import proofs.«146663_j7301444403296_2_alg».proof.Proof.RefSide

noncomputable section

open Idealize.ShloMosaic Idealize.ShloMosaic.TcCoe Idealize.SL.Sem

namespace Cert.Bridge

open Idealize.ShloMosaic.ValueIdx Cert.Chamfer Cert.KernelIdeal.Final

/-- The reference's result is the kernel's loss of the same two clouds. -/
theorem result_eq (x0 x1 : Cloud) :
    Cert.ReferenceIdeal.Read.val_main_v31 (F := Ideal) x0 x1 = Cert.KernelIdeal.Run.loss x0 x1 := by
  rw [Cert.ReferenceIdeal.RefSide.result_eq]
  unfold Cert.KernelIdeal.Run.loss
  have e1 : Cert.ReferenceIdeal.Read.val_main_v16 (F := Ideal) x0 x1
      = shapeCast Cert.KernelIdeal.S8x4096 (Grow x0 x1) Cert.KernelIdeal.Facts₀.shapeCasts_S8x4096x1_S8x4096 :=
    ext_SP fun b n => by
      rw [Cert.ReferenceIdeal.RefSide.row_apply, Cert.KernelIdeal.Tail.reshape_row]
      exact (Grow_apply x0 x1 _ b n rfl rfl).symm
  have e2 : Cert.ReferenceIdeal.Read.val_main_v18 (F := Ideal) x0 x1
      = shapeCast Cert.KernelIdeal.S8x4096 (Gcol x0 x1) Cert.KernelIdeal.Facts₀.shapeCasts_S8x1x4096_S8x4096 :=
    ext_SP fun b q => by
      rw [Cert.ReferenceIdeal.RefSide.col_apply, Cert.KernelIdeal.Tail.reshape_col]
      exact (Gcol_apply x0 x1 _ b q rfl rfl).symm
  rw [e1, e2]

end Cert.Bridge

end
-- ==== Proof.lean ====
/- The proof of `Cert.Claim`: a Chamfer-distance kernel against its jnp reference, over the extended reals.

   Both programs compute, for two clouds of 8 × 4096 points in three coordinates, every clamped squared
   distance max((|p|² + |q|²) − 2·(p·q), 0), each point's nearest-neighbour distance (the square root of
   the minimum over the other cloud, taken from +∞), and the mean over batches of the sum of the two
   clouds' mean nearest-neighbour distances.  The kernel works tile by tile: 256 rows of the first
   cloud against the whole (transposed) second cloud; a tile's row minima are final at once, while
   the column minima are carried across the 16 tiles of a batch as a running minimum that restarts
   from +∞.  Since a minimum is determined by its lower bounds, the running minimum after the last
   tile is the minimum over the whole cloud (Proof/KInv.lean); the blocks tile the two output arrays
   (Proof/KFinal.lean); the reference's arrays are the same functions of the clouds
   (Proof/RefSide.lean); and both programs end with the same mean of means, the reference's two
   multiplications by one being the identity (Proof/Bridge.lean).  No law used needs finiteness: the
   precondition is never opened.  The ideal pass rewrote nothing, so `preserves` is trivial. -/
import proofs.«146663_j7301444403296_2_alg».proof.Defs
import proofs.«146663_j7301444403296_2_alg».proof.Proof.Gen.Kernel
import proofs.«146663_j7301444403296_2_alg».proof.Proof.Gen.Kernel.Skeleton
import proofs.«146663_j7301444403296_2_alg».proof.Proof.Gen.Kernel.Launch
import proofs.«146663_j7301444403296_2_alg».proof.Proof.Gen.Kernel.Points
import proofs.«146663_j7301444403296_2_alg».proof.Proof.Gen.Kernel.Frame
import proofs.«146663_j7301444403296_2_alg».proof.Proof.Gen.KernelIdeal
import proofs.«146663_j7301444403296_2_alg».proof.Proof.Gen.KernelIdeal.Skeleton
import proofs.«146663_j7301444403296_2_alg».proof.Proof.Gen.KernelIdeal.Launch
import proofs.«146663_j7301444403296_2_alg».proof.Proof.Gen.KernelIdeal.Points
import proofs.«146663_j7301444403296_2_alg».proof.Proof.Gen.KernelIdeal.Frame
import proofs.«146663_j7301444403296_2_alg».proof.Proof.Gen.ReferenceIdeal
import proofs.«146663_j7301444403296_2_alg».proof.Proof.Gen.ReferenceIdeal.Run
import proofs.«146663_j7301444403296_2_alg».proof.Proof.Gen.ReferenceIdeal.Read
import proofs.«146663_j7301444403296_2_alg».proof.Proof.Gen.Pre_finite_inputs
import proofs.«146663_j7301444403296_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the loss of the same two clouds. -/
theorem algebraic : Cert.algebraic_KernelIdeal_ReferenceIdeal := by
  intro m ρ m' ρ' _ hagree
  refine ⟨fun c => Cert.KernelIdeal.Run.loss (Cert.KernelIdeal.Inv.A0 m c) (Cert.KernelIdeal.Inv.A1 m c),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v31_eq _ _).trans (Cert.Bridge.result_eq _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
